-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x6x4 : Shape := ⟨3, ![500000, 6, 4]⟩
abbrev S_ : Shape := ⟨0, ![]⟩

class Facts : Prop where
  bcast_S_S500000x6x4 : S_.BroadcastsInDim S500000x6x4 (![] : Fin 0 → Fin S500000x6x4.rank)
  reducesTo_S500000x6x4_S_d0_1_2 : S500000x6x4.ReducesTo [0, 1, 2] S_
  h_S_ : 0 < S_.numel

variable [Facts]

def fn_part1 {F : FTy → Type} [FloatOps F] (main_v13 : IVec S_ 1) (main_v16 : IVec S500000x6x4 1) : IVec S_ 1 :=
  let main_c_5 : IVec S_ 1 := constantI S_ 1 1#1
  let main_v17 : IVec S_ 1 := (fun x v => Host.reduce IntOp.andi x v reducesTo_S500000x6x4_S_d0_1_2 h_S_) main_v16 main_c_5
  let main_v18 : IVec S_ 1 := andi main_v13 main_v17
  main_v18

def fn {F : FTy → Type} [FloatOps F] (main_arg0 : FVec F S500000x6x4 .f32) (main_arg1 : FVec F S500000x6x4 .f32) (main_arg2 : FVec F S500000x6x4 .f32) (main_arg3 : FVec F S500000x6x4 .f32) : IVec S_ 1 :=
  let main_v0 : FVec F S500000x6x4 .f32 := Host.absf main_arg0
  let main_cst : FVec F S_ .f32 := constant S_ .f32 0x7F800000#32
  let main_v1 : FVec F S500000x6x4 .f32 := broadcastInDim S500000x6x4 ![] bcast_S_S500000x6x4 main_cst
  let main_v2 : IVec S500000x6x4 1 := cmpf .olt main_v0 main_v1
  let main_c : IVec S_ 1 := constantI S_ 1 1#1
  let main_v3 : IVec S_ 1 := (fun x v => Host.reduce IntOp.andi x v reducesTo_S500000x6x4_S_d0_1_2 h_S_) main_v2 main_c
  let main_v4 : FVec F S500000x6x4 .f32 := Host.absf main_arg1
  let main_cst_0 : FVec F S_ .f32 := constant S_ .f32 0x7F800000#32
  let main_v5 : FVec F S500000x6x4 .f32 := broadcastInDim S500000x6x4 ![] bcast_S_S500000x6x4 main_cst_0
  let main_v6 : IVec S500000x6x4 1 := cmpf .olt main_v4 main_v5
  let main_c_1 : IVec S_ 1 := constantI S_ 1 1#1
  let main_v7 : IVec S_ 1 := (fun x v => Host.reduce IntOp.andi x v reducesTo_S500000x6x4_S_d0_1_2 h_S_) main_v6 main_c_1
  let main_v8 : IVec S_ 1 := andi main_v3 main_v7
  let main_v9 : FVec F S500000x6x4 .f32 := Host.absf main_arg2
  let main_cst_2 : FVec F S_ .f32 := constant S_ .f32 0x7F800000#32
  let main_v10 : FVec F S500000x6x4 .f32 := broadcastInDim S500000x6x4 ![] bcast_S_S500000x6x4 main_cst_2
  let main_v11 : IVec S500000x6x4 1 := cmpf .olt main_v9 main_v10
  let main_c_3 : IVec S_ 1 := constantI S_ 1 1#1
  let main_v12 : IVec S_ 1 := (fun x v => Host.reduce IntOp.andi x v reducesTo_S500000x6x4_S_d0_1_2 h_S_) main_v11 main_c_3
  let main_v13 : IVec S_ 1 := andi main_v8 main_v12
  let main_v14 : FVec F S500000x6x4 .f32 := Host.absf main_arg3
  let main_cst_4 : FVec F S_ .f32 := constant S_ .f32 0x7F800000#32
  let main_v15 : FVec F S500000x6x4 .f32 := broadcastInDim S500000x6x4 ![] bcast_S_S500000x6x4 main_cst_4
  let main_v16 : IVec S500000x6x4 1 := cmpf .olt main_v14 main_v15
  fn_part1 (F := F) main_v13 main_v16
-- ==== Kernel.lean ====
abbrev S500000x6x4 : Shape := ⟨3, ![500000, 6, 4]⟩
abbrev S500000x24 : Shape := ⟨2, ![500000, 24]⟩
abbrev S500000x4 : Shape := ⟨2, ![500000, 4]⟩
abbrev S2000x24 : Shape := ⟨2, ![2000, 24]⟩
abbrev S2000x4 : Shape := ⟨2, ![2000, 4]⟩
abbrev S_ : Shape := ⟨0, ![]⟩
abbrev S16777216 : Shape := ⟨1, ![16777216]⟩
abbrev S2000000 : Shape := ⟨1, ![2000000]⟩
abbrev S2000000x1 : Shape := ⟨2, ![2000000, 1]⟩
abbrev S4x4x4x4x4x4x4x4x4x4x4x4 : Shape := ⟨12, ![4, 4, 4, 4, 4, 4, 4, 4, 4, 4, 4, 4]⟩

abbrev nBuf : Space → Nat
  | .hbm => 27
  | .vmem => 10
  | .smem => 0
  | _ => 0

abbrev bufTy : (tb : Table) → Fin (tcTables nBuf tb) → BufTy
  | .hbm, ⟨0, _⟩ => ⟨S500000x6x4, .f32⟩
  | .hbm, ⟨1, _⟩ => ⟨S500000x6x4, .f32⟩
  | .hbm, ⟨2, _⟩ => ⟨S500000x6x4, .f32⟩
  | .hbm, ⟨3, _⟩ => ⟨S500000x6x4, .f32⟩
  | .hbm, ⟨4, _⟩ => ⟨S500000x24, .f32⟩
  | .hbm, ⟨5, _⟩ => ⟨S500000x24, .f32⟩
  | .hbm, ⟨6, _⟩ => ⟨S500000x24, .f32⟩
  | .hbm, ⟨7, _⟩ => ⟨S500000x24, .f32⟩
  | .hbm, ⟨8, _⟩ => ⟨S500000x4, .i32⟩
  | .hbm, ⟨9, _⟩ => ⟨S_, .f32⟩
  | .hbm, ⟨10, _⟩ => ⟨S16777216, .f32⟩
  | .hbm, ⟨11, _⟩ => ⟨S2000000, .i32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S_, .f32⟩
  | .hbm, ⟨21, _⟩ => ⟨S2000000, .f32⟩
  | .hbm, ⟨22, _⟩ => ⟨S16777216, .f32⟩
  | .hbm, ⟨23, _⟩ => ⟨S_, .f32⟩
  | .hbm, ⟨24, _⟩ => ⟨S16777216, .f32⟩
  | .hbm, ⟨25, _⟩ => ⟨S16777216, .f32⟩
  | .hbm, ⟨26, _⟩ => ⟨S4x4x4x4x4x4x4x4x4x4x4x4, .f32⟩
  | .local _ .vmem, ⟨0, _⟩ => ⟨S2000x24, .f32⟩
  | .local _ .vmem, ⟨1, _⟩ => ⟨S2000x24, .f32⟩
  | .local _ .vmem, ⟨2, _⟩ => ⟨S2000x24, .f32⟩
  | .local _ .vmem, ⟨3, _⟩ => ⟨S2000x24, .f32⟩
  | .local _ .vmem, ⟨4, _⟩ => ⟨S2000x24, .f32⟩
  | .local _ .vmem, ⟨5, _⟩ => ⟨S2000x24, .f32⟩
  | .local _ .vmem, ⟨6, _⟩ => ⟨S2000x24, .f32⟩
  | .local _ .vmem, ⟨7, _⟩ => ⟨S2000x24, .f32⟩
  | .local _ .vmem, ⟨8, _⟩ => ⟨S2000x4, .i32⟩
  | .local _ .vmem, ⟨9, _⟩ => ⟨S2000x4, .i32⟩
  | _, _ => ⟨S500000x6x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x4 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S500000x6x4_S500000x24 : S500000x6x4.ShapeCasts S500000x24
  inb_S2000x24_S2000x24_0_0 : ∀ a, (![0, 0] : Fin 2 → Nat) a + S2000x24.size a ≤ S2000x24.size a
  h_S2000x24 : 0 < S2000x24.numel
  shapeCasts_S2000x24_S2000x24 : S2000x24.ShapeCasts S2000x24
  slices_S2000x24_o0_0_S2000x4 : S2000x24.Slices ![0, 0] S2000x4
  slices_S2000x24_o0_4_S2000x4 : S2000x24.Slices ![0, 4] S2000x4
  slices_S2000x24_o0_8_S2000x4 : S2000x24.Slices ![0, 8] S2000x4
  slices_S2000x24_o0_12_S2000x4 : S2000x24.Slices ![0, 12] S2000x4
  slices_S2000x24_o0_16_S2000x4 : S2000x24.Slices ![0, 16] S2000x4
  slices_S2000x24_o0_20_S2000x4 : S2000x24.Slices ![0, 20] S2000x4
  inb_S2000x4_S2000x4_0_0 : ∀ a, (![0, 0] : Fin 2 → Nat) a + S2000x4.size a ≤ S2000x4.size a
  h_S2000x4 : 0 < S2000x4.numel
  bcast_S_S16777216 : S_.BroadcastsInDim S16777216 (![] : Fin 0 → Fin S16777216.rank)
  shapeCasts_S500000x4_S2000000 : S500000x4.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S16777216_S4x4x4x4x4x4x4x4x4x4x4x4 : S16777216.ShapeCasts S4x4x4x4x4x4x4x4x4x4x4x4
  scatter_S16777216_S2000000x1_S2000000_n_0_0_1_wf : ScatterDims.WF S16777216 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x24.size a ≤ S500000x24.size a
  hwx0_0 : ∀ i : grid0.Coords, EltTy.bits .f32 = 32 ∨ (Rect.block (s := S500000x24) S2000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x24.size a ≤ S500000x24.size a
  hwx0_1 : ∀ i : grid0.Coords, EltTy.bits .f32 = 32 ∨ (Rect.block (s := S500000x24) S2000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x24.size a ≤ S500000x24.size a
  hwx0_2 : ∀ i : grid0.Coords, EltTy.bits .f32 = 32 ∨ (Rect.block (s := S500000x24) S2000x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x24.size a ≤ S500000x24.size a
  hwx0_3 : ∀ i : grid0.Coords, EltTy.bits .f32 = 32 ∨ (Rect.block (s := S500000x24) S2000x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x4.size a ≤ S500000x4.size a
  hwx0_4 : ∀ i : grid0.Coords, EltTy.bits .i32 = 32 ∨ (Rect.block (s := S500000x4) S2000x4.size (cc0_transform_4 i) (hinb0_4 i)).WholeWords (EltTy.packing .i32)

variable [Facts₀]

def scatter_S16777216_S2000000x1_S2000000_n_0_0_1 : ScatterDims S16777216 S2000000x1 S2000000 where
  updateWindowDims := []
  insertedWindowDims := [0]
  scatterDimsToOperandDims := [0]
  indexVectorDim := 1
  wf := scatter_S16777216_S2000000x1_S2000000_n_0_0_1_wf

abbrev win0_0 : Pipeline.Window sig grid0 :=
  Pipeline.Window.ofSpec (Memref.whole main_v0) S2000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2000x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x6x4 : Shape := ⟨3, ![500000, 6, 4]⟩
abbrev S12 : Shape := ⟨1, ![12]⟩
abbrev S_ : Shape := ⟨0, ![]⟩
abbrev S500000x12x4 : Shape := ⟨3, ![500000, 12, 4]⟩
abbrev S1x12x1 : Shape := ⟨3, ![1, 12, 1]⟩
abbrev S500000x4 : Shape := ⟨2, ![500000, 4]⟩
abbrev S16777216 : Shape := ⟨1, ![16777216]⟩
abbrev S2000000 : Shape := ⟨1, ![2000000]⟩
abbrev S2000000x1 : Shape := ⟨2, ![2000000, 1]⟩
abbrev S4x4x4x4x4x4x4x4x4x4x4x4 : Shape := ⟨12, ![4, 4, 4, 4, 4, 4, 4, 4, 4, 4, 4, 4]⟩

abbrev nBuf : Space → Nat
  | .hbm => 49
  | .vmem => 0
  | .smem => 0
  | _ => 0

abbrev bufTy : (tb : Table) → Fin (tcTables nBuf tb) → BufTy
  | .hbm, ⟨0, _⟩ => ⟨S500000x6x4, .f32⟩
  | .hbm, ⟨1, _⟩ => ⟨S500000x6x4, .f32⟩
  | .hbm, ⟨2, _⟩ => ⟨S500000x6x4, .f32⟩
  | .hbm, ⟨3, _⟩ => ⟨S500000x6x4, .f32⟩
  | .hbm, ⟨4, _⟩ => ⟨S12, .i32⟩
  | .hbm, ⟨5, _⟩ => ⟨S500000x6x4, .f32⟩
  | .hbm, ⟨6, _⟩ => ⟨S500000x6x4, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S500000x6x4, .i32⟩
  | .hbm, ⟨11, _⟩ => ⟨S500000x6x4, .i32⟩
  | .hbm, ⟨12, _⟩ => ⟨S_, .i32⟩
  | .hbm, ⟨13, _⟩ => ⟨S500000x6x4, .i32⟩
  | .hbm, ⟨14, _⟩ => ⟨S500000x6x4, .i32⟩
  | .hbm, ⟨15, _⟩ => ⟨S500000x6x4, .f32⟩
  | .hbm, ⟨16, _⟩ => ⟨S500000x6x4, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S500000x6x4, .i32⟩
  | .hbm, ⟨21, _⟩ => ⟨S500000x6x4, .i32⟩
  | .hbm, ⟨22, _⟩ => ⟨S_, .i32⟩
  | .hbm, ⟨23, _⟩ => ⟨S500000x6x4, .i32⟩
  | .hbm, ⟨24, _⟩ => ⟨S500000x6x4, .i32⟩
  | .hbm, ⟨25, _⟩ => ⟨S500000x12x4, .i32⟩
  | .hbm, ⟨26, _⟩ => ⟨S1x12x1, .i32⟩
  | .hbm, ⟨27, _⟩ => ⟨S500000x12x4, .i32⟩
  | .hbm, ⟨28, _⟩ => ⟨S500000x12x4, .i32⟩
  | .hbm, ⟨29, _⟩ => ⟨S_, .i32⟩
  | .hbm, ⟨30, _⟩ => ⟨S500000x4, .i32⟩
  | .hbm, ⟨31, _⟩ => ⟨S_, .f32⟩
  | .hbm, ⟨32, _⟩ => ⟨S16777216, .f32⟩
  | .hbm, ⟨33, _⟩ => ⟨S2000000, .i32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S_, .f32⟩
  | .hbm, ⟨43, _⟩ => ⟨S2000000, .f32⟩
  | .hbm, ⟨44, _⟩ => ⟨S16777216, .f32⟩
  | .hbm, ⟨45, _⟩ => ⟨S_, .f32⟩
  | .hbm, ⟨46, _⟩ => ⟨S16777216, .f32⟩
  | .hbm, ⟨47, _⟩ => ⟨S16777216, .f32⟩
  | .hbm, ⟨48, _⟩ => ⟨S4x4x4x4x4x4x4x4x4x4x4x4, .f32⟩
  | _, _ => ⟨S500000x6x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_2 : Ref sig .tc := ⟨.hbm, 17, rfl⟩
abbrev main_c_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_4 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_c_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_cst_8 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]

class Facts₀ : Prop where
  bcast_S_S500000x6x4 : S_.BroadcastsInDim S500000x6x4 (![] : Fin 0 → Fin S500000x6x4.rank)
  concatenates_S500000x6x4_S500000x6x4_S500000x12x4_d1 : Shape.Concatenates [S500000x6x4, S500000x6x4] S500000x12x4 1
  bcast_S12_S1x12x1_1 : S12.BroadcastsInDim S1x12x1 (![1] : Fin 1 → Fin S1x12x1.rank)
  bcast_S1x12x1_S500000x12x4_0_1_2 : S1x12x1.BroadcastsInDim S500000x12x4 (![0, 1, 2] : Fin 3 → Fin S500000x12x4.rank)
  reducesTo_S500000x12x4_S500000x4_d1 : S500000x12x4.ReducesTo [1] S500000x4
  h_S_ : 0 < S_.numel
  bcast_S_S16777216 : S_.BroadcastsInDim S16777216 (![] : Fin 0 → Fin S16777216.rank)
  shapeCasts_S500000x4_S2000000 : S500000x4.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S16777216_S4x4x4x4x4x4x4x4x4x4x4x4 : S16777216.ShapeCasts S4x4x4x4x4x4x4x4x4x4x4x4
  scatter_S16777216_S2000000x1_S2000000_n_0_0_1_wf : ScatterDims.WF S16777216 S2000000x1 S2000000 [] [0] [0] 1

variable [Facts₀]

def scatter_S16777216_S2000000x1_S2000000_n_0_0_1 : ScatterDims S16777216 S2000000x1 S2000000 where
  updateWindowDims := []
  insertedWindowDims := [0]
  scatterDimsToOperandDims := [0]
  indexVectorDim := 1
  wf := scatter_S16777216_S2000000x1_S2000000_n_0_0_1_wf

class Facts : Prop extends Facts₀ where

variable [Facts]
-- ==== Proof.Spec.lean ====
/-
  The histogram's bin index, stated once for both programs.

  A sample r carries twelve coordinate rows of four points each: six from the input tensor (with its bias added)
  and six from the output tensor (with its bias added).  Each entry becomes a base-4 DIGIT: the sum x + b is
  converted to a 32-bit integer and clamped to [0, 3].  Point q of sample r then falls in the bin whose index is
  the twelve digits of column q read as a base-4 number, most significant first:
      bin r q = Σ_k digit_k(r, q) · 4^(11 - k)        (k = 0 … 11, arithmetic in 32-bit words).
  The kernel adds the twelve products one after the other, starting from zero (a left-nested chain); the reference
  multiplies a [samples, 12, 4] array by the weights and reduces over the middle axis.  Addition of 32-bit words is
  commutative and associative, so the two agree (fold12).
-/
import Idealize.ShloMosaic.PureOps
import Idealize.ShloMosaic.PureOps.Reduce
import Idealize.ShloMosaic.Lib.ValueIdx
import Mathlib.Algebra.BigOperators.Fin
import Mathlib.Data.BitVec

noncomputable section

namespace Cert.Hist

open Idealize.ShloMosaic Idealize.ShloMosaic.ValueIdx

/-- An argument tensor: samples × six coordinates × four points. -/
abbrev SA : Shape := ⟨3, ![500000, 6, 4]⟩
/-- The bin indices: samples × four points. -/
abbrev SL : Shape := ⟨2, ![500000, 4]⟩

variable {F : FTy → Type} [FloatOps F]

/-- One base-4 digit: x + b converted to a 32-bit integer, clamped below at 0 and above at 3. -/
def digit (x b : F .f32) : BitVec 32 :=
  IntOp.minsi 3#32 (IntOp.maxsi 0#32 (FloatOps.fptosi 32 (FloatOps.addf x b)))

/-- The weight of digit k: 4^(11 - k). -/
def wt : Fin 12 → BitVec 32 := fun
  | 0 => 4194304#32 | 1 => 1048576#32 | 2 => 262144#32 | 3 => 65536#32 | 4 => 16384#32 | 5 => 4096#32
  | 6 => 1024#32 | 7 => 256#32 | 8 => 64#32 | 9 => 16#32 | 10 => 4#32 | 11 => 1#32

/-- Digit k of sample r at point q: the first six from the input tensor ai and its bias bi, the last six from
    the output tensor ao and its bias bo. -/
def dg (ai ao bi bo : SA.Idx → F .f32) (r : Fin 500000) (q : Fin 4) (k : Fin 12) : BitVec 32 :=
  if h : k.val < 6 then digit (ai (ix3 r ⟨k.val, h⟩ q)) (bi (ix3 r ⟨k.val, h⟩ q))
  else digit (ao (ix3 r ⟨k.val - 6, by have := k.isLt; omega⟩ q)) (bo (ix3 r ⟨k.val - 6, by have := k.isLt; omega⟩ q))

/-- Twelve words added one after the other, starting from zero. -/
def chain (g : Fin 12 → BitVec 32) : BitVec 32 :=
  IntOp.addi (IntOp.addi (IntOp.addi (IntOp.addi (IntOp.addi (IntOp.addi (IntOp.addi (IntOp.addi (IntOp.addi (IntOp.addi
    (IntOp.addi (IntOp.addi 0#32 (g 0)) (g 1)) (g 2)) (g 3)) (g 4)) (g 5)) (g 6)) (g 7)) (g 8)) (g 9)) (g 10)) (g 11)

/-- The bin index of point q of sample r: its twelve digits times their weights, added up. -/
def lin (ai ao bi bo : SA.Idx → F .f32) : SL.Idx → BitVec 32 :=
  fun i => chain fun k => IntOp.muli (dg ai ao bi bo (i 0) (i 1) k) (wt k)

/-- Adding twelve words in any order and grouping gives the chain: the fold of + over the twelve positions, from
    zero, is the sum, and the sum is the chain up to commutativity and associativity. -/
theorem fold12 (g : Fin 12 → BitVec 32) :
    (Finset.univ : Finset (Fin 12)).fold IntOp.addi 0#32 g = chain g := by
  have h : (Finset.univ : Finset (Fin 12)).fold IntOp.addi 0#32 g = ∑ k, g k := rfl
  rw [h, Fin.sum_univ_def, show List.finRange 12 = [0, 1, 2, 3, 4, 5, 6, 7, 8, 9, 10, 11] from by decide]
  unfold chain IntOp.addi
  simp only [List.map, List.sum_cons, List.sum_nil, BitVec.add_zero, BitVec.zero_add]
  ac_rfl

end Cert.Hist

end
-- ==== Proof.KernelBlock.lean ====
/-
  What the kernel's body stores, index by index.

  The body loads a block of 2000 samples of each of the four operands (each sample's six coordinate rows of four
  points laid side by side in 24 columns: column 4h + q is coordinate h, point q), forms the clamped digits of
  input + bias and of output + bias, and adds up, for each of the four points q, the twelve digits of column
  positions 4h + q times their weights, one after the other from zero.  Read at row p and point q, the stored
  value is the specification's chain over the block's digits.
-/
import proofs.«165879_j49735721287941_1_alg».proof.Proof.Gen.KernelIdeal.Skeleton
import proofs.«165879_j49735721287941_1_alg».proof.Proof.Spec
import Idealize.ShloMosaic.Lib.Pipeline.Value

noncomputable section

namespace Cert.KernelIdeal.Hand

open Cert.KernelIdeal Cert.KernelIdeal.Gen Idealize.ShloMosaic Idealize.ShloMosaic.ValueIdx

variable {F : FTy → Type} [FloatOps F]

/-- Column 4h + q of a 24-column row: coordinate h, point q. -/
abbrev col (h : Fin 6) (q : Fin 4) : Fin 24 := ⟨4 * h.val + q.val, by have := h.isLt; have := q.isLt; omega⟩

/-- Digit k of row p at point q, read off the four loaded blocks: the first six from the first pair of blocks
    (tensor, bias), the last six from the second pair. -/
def blockDigit (x0 x1 x2 x3 : Vec F S2000x24 .f32) (p : Fin 2000) (q : Fin 4) (k : Fin 12) : BitVec 32 :=
  if h : k.val < 6 then Cert.Hist.digit (x0 (ix2 p (col ⟨k.val, h⟩ q))) (x1 (ix2 p (col ⟨k.val, h⟩ q)))
  else Cert.Hist.digit (x2 (ix2 p (col ⟨k.val - 6, by have := k.isLt; omega⟩ q))) (x3 (ix2 p (col ⟨k.val - 6, by have := k.isLt; omega⟩ q)))

/-- The clamped digits of the first pair of blocks, at an index. -/
theorem pay2_apply (x0 x1 : Vec F S2000x24 .f32) (j : S2000x24.Idx) : k0_pay2 x0 x1 j = Cert.Hist.digit (x0 j) (x1 j) := by
  unfold k0_pay2
  simp only [shapeCast_self]
  rfl

/-- The clamped digits of the second pair of blocks, at an index. -/
theorem pay3_apply (x2 x3 : Vec F S2000x24 .f32) (j : S2000x24.Idx) : k0_pay3 x2 x3 j = Cert.Hist.digit (x2 j) (x3 j) := by
  unfold k0_pay3
  simp only [shapeCast_self]
  rfl

/-- Four columns starting at column c₀, times a weight, at row p and point q: the entry at column c₀ + q, times
    the weight. -/
theorem term_apply (v : IVec S2000x24 32) (c₀ : Nat) (hs : S2000x24.Slices ![0, c₀] S2000x4) (w : BitVec 32) (p : Fin 2000) (q : Fin 4)
    (hc : c₀ + q.val < 24) :
    muli (extractStridedSlice S2000x4 ![0, c₀] v hs) (broadcast S2000x4 w) (ix2 p q) = IntOp.muli (v (ix2 p ⟨c₀ + q.val, hc⟩)) w := by
  show IntOp.muli (extractStridedSlice S2000x4 ![0, c₀] v hs (ix2 p q)) w = _
  rw [extractStridedSlice_apply ![0, c₀] v hs (ix2 p q) (ix2 p ⟨c₀ + q.val, hc⟩)
    (fun a => match a with
      | ⟨0, _⟩ => by show p.val = 0 + p.val; omega
      | ⟨1, _⟩ => rfl)]

theorem addi_apply {s : Shape} (a b : IVec s 32) (i : s.Idx) : addi a b i = IntOp.addi (a i) (b i) := rfl

/-- THE STORED VALUE at row p, point q: the chain over the block's twelve digits times their weights. -/
theorem pay_apply (x0 x1 x2 x3 : Vec F S2000x24 .f32) (p : Fin 2000) (q : Fin 4) :
    k0_pay1 (k0_pay2 x0 x1) (k0_pay3 x2 x3) (k0_pay4 x0 x1) (ix2 p q)
      = Cert.Hist.chain fun k => IntOp.muli (blockDigit x0 x1 x2 x3 p q k) (Cert.Hist.wt k) := by
  have hq := q.isLt
  unfold k0_pay1 k0_pay4
  simp only [addi_apply]
  rw [term_apply _ 0 _ _ p q (by omega), term_apply _ 4 _ _ p q (by omega), term_apply _ 8 _ _ p q (by omega),
    term_apply _ 12 _ _ p q (by omega), term_apply _ 16 _ _ p q (by omega), term_apply _ 20 _ _ p q (by omega),
    term_apply _ 0 _ _ p q (by omega), term_apply _ 4 _ _ p q (by omega), term_apply _ 8 _ _ p q (by omega),
    term_apply _ 12 _ _ p q (by omega), term_apply _ 16 _ _ p q (by omega), term_apply _ 20 _ _ p q (by omega)]
  simp only [pay2_apply, pay3_apply]
  rfl

end Cert.KernelIdeal.Hand

end
-- ==== Proof.Tail.lean ====
/-
  From bin indices to the histogram: the part both programs share.

  The [samples, 4] array of bin indices is flattened to one list of 2,000,000 indices; a negative index is moved
  up by the number of bins (the indexing convention for negative positions); a histogram of 4^12 = 16,777,216
  zeros receives 1 at each listed bin (colliding additions accumulate); every count is divided by the number of
  samples, 500,000; and the result is viewed as a 12-dimensional array of extent 4 along each axis.  Both programs
  apply exactly these operations, in this order and with these constants, to their own array of bin indices, so
  the certificate only ever needs that this is ONE function of that array.
-/
import proofs.«165879_j49735721287941_1_alg».proof.Proof.Spec

noncomputable section

namespace Cert.Hist

open Idealize.ShloMosaic

/-- The flattened bin indices. -/
abbrev SF : Shape := ⟨1, ![2000000]⟩
/-- The same, as a column of one-entry index vectors. -/
abbrev SF1 : Shape := ⟨2, ![2000000, 1]⟩
/-- The histogram, flat. -/
abbrev SH : Shape := ⟨1, ![16777216]⟩
/-- The histogram, one axis per digit. -/
abbrev SR : Shape := ⟨12, ![4, 4, 4, 4, 4, 4, 4, 4, 4, 4, 4, 4]⟩
/-- A scalar. -/
abbrev S0 : Shape := ⟨0, ![]⟩

variable {F : FTy → Type} [FloatOps F]

/-- The normalized histogram of an array of bin indices. -/
def tail (hbH : S0.BroadcastsInDim SH (![] : Fin 0 → Fin SH.rank)) (hcF : SL.ShapeCasts SF)
    (hbF : S0.BroadcastsInDim SF (![] : Fin 0 → Fin SF.rank)) (hbF1 : SF.BroadcastsInDim SF1 (![0] : Fin 1 → Fin SF1.rank))
    (hcR : SH.ShapeCasts SR) (hwf : ScatterDims.WF SH SF1 SF [] [0] [0] 1) (l : IVec SL 32) : FVec F SR .f32 :=
  shapeCast SR
    (Host.divf
      (Host.scatterAdd
        ({ updateWindowDims := [], insertedWindowDims := [0], scatterDimsToOperandDims := [0], indexVectorDim := 1, wf := hwf } :
          ScatterDims SH SF1 SF)
        (broadcastInDim SH ![] hbH (constant (F := F) S0 .f32 0x00000000#32))
        (broadcastInDim SF1 ![0] hbF1
          (select (cmpi .slt (shapeCast SF l hcF) (broadcastInDim SF ![] hbF (constantI S0 32 0#32)))
            (addi (shapeCast SF l hcF) (broadcastInDim SF ![] hbF (constantI S0 32 16777216#32)))
            (shapeCast SF l hcF)))
        (broadcastInDim SF ![] hbF (constant (F := F) S0 .f32 0x3F800000#32)))
      (broadcastInDim SH ![] hbH (constant (F := F) S0 .f32 0x48F42400#32)))
    hcR

end Cert.Hist

end
-- ==== Proof.KernelArr.lean ====
/-
  The kernel's array of bin indices, and the kernel program's result.

  Grid point t handles samples 2000 t … 2000 t + 1999: every window's block index is (t, 0).  The four operands
  are the argument tensors with their last two axes merged (a reshape: entry (r, 4h + q) is the tensor's entry
  (r, h, q)), so a block's entry (p, 4h + q) is the tensor's entry (2000 t + p, h, q), and what point t writes
  back is block t of the specification's bin indices of the argument tensors.  The 250 blocks tile the
  [500000, 4] array, so after the call the whole array holds the specification's bin indices; the host
  operations after the call are the shared histogram step.
-/
import proofs.«165879_j49735721287941_1_alg».proof.Proof.Gen.KernelIdeal.Frame
import proofs.«165879_j49735721287941_1_alg».proof.Proof.KernelBlock
import proofs.«165879_j49735721287941_1_alg».proof.Proof.Tail
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store covers the output block: the block is the stored value, of the loaded blocks. -/
theorem out_pay (x0 x1 x2 x3 : Vec F S2000x24 .f32) :
    out0_4 x0 x1 x2 x3 = k0_pay1 (k0_pay2 x0 x1) (k0_pay3 x2 x3) (k0_pay4 x0 x1) := by
  unfold out0_4
  rw [View.canon_unit_zero hz]
  simp only [View.ld_unit_zero (S := S2000x24) hz]

/-- Every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A tensor with its last two axes merged, read at row R and column 4h + q, is the tensor at (R, h, q): the two
    indices have the same row-major position. -/
theorem reshape_apply (A : S500000x6x4.Idx → F .f32) (hc : S500000x6x4.ShapeCasts S500000x24) (j : S500000x24.Idx)
    (R : Fin 500000) (h : Fin 6) (q : Fin 4) (hj0 : (j 0).val = R.val) (hj1 : (j 1).val = 4 * h.val + q.val) :
    shapeCast S500000x24 A hc j = A (ix3 R h q) :=
  shapeCast_apply A hc j (ix3 R h q) (by
    rw [Shape.rowMajor_val_three, Shape.rowMajor_val_two]
    show (R.val * 6 + h.val) * 4 + q.val = (j 0).val * 24 + (j 1).val
    rw [hj0, hj1]; omega)

/-- Operand 0 of the call, as the region finds it: argument main_arg0 with its last two axes merged. -/
theorem V_main_v0 (c : Dev nD) :
    (V m c main_v0 : S500000x24.Idx → F .f32) = shapeCast S500000x24 (m ((c : Thread nD τ).loc main_arg0)) shapeCasts_S500000x6x4_S500000x24 := by
  show StableHlo.after hostOps0 (fun b => m (c, b)) (Proc.devRef .tc main_v0) = _
  after_results
  rfl

/-- Window 0's block at point t, read at row p and column 4h + q, is the argument at sample 2000 t + p,
    coordinate h, point q. -/
theorem blk0_apply (c : Dev nD) (t : Fin cfg0.N) (p : Fin 2000) (h : Fin 6) (q : Fin 4) (R : Fin 500000)
    (hR : R.val = 2000 * t.val + p.val) :
    (iblk m c 0 t : Vec F S2000x24 .f32) (ix2 p (col h q)) = (m ((c : Thread nD τ).loc main_arg0)) (ix3 R h q) := by
  have e := idx_facts t
  unfold iblk
  rw [View.read_apply]
  show V m c main_v0 _ = _
  rw [V_main_v0 m c]
  refine reshape_apply _ _ _ R h q ?_ ?_
  · show win0_0.index t (0 : Fin 2) * 2000 + 1 * p.val = R.val
    rw [hR]; omega
  · show win0_0.index t (1 : Fin 2) * 24 + 1 * (4 * h.val + q.val) = 4 * h.val + q.val
    omega

/-- Operand 1 of the call, as the region finds it: argument main_arg2 with its last two axes merged. -/
theorem V_main_v1 (c : Dev nD) :
    (V m c main_v1 : S500000x24.Idx → F .f32) = shapeCast S500000x24 (m ((c : Thread nD τ).loc main_arg2)) shapeCasts_S500000x6x4_S500000x24 := by
  show StableHlo.after hostOps0 (fun b => m (c, b)) (Proc.devRef .tc main_v1) = _
  after_results
  rfl

/-- Window 1's block at point t, read at row p and column 4h + q, is the argument at sample 2000 t + p,
    coordinate h, point q. -/
theorem blk1_apply (c : Dev nD) (t : Fin cfg0.N) (p : Fin 2000) (h : Fin 6) (q : Fin 4) (R : Fin 500000)
    (hR : R.val = 2000 * t.val + p.val) :
    (iblk m c 1 t : Vec F S2000x24 .f32) (ix2 p (col h q)) = (m ((c : Thread nD τ).loc main_arg2)) (ix3 R h q) := by
  have e := idx_facts t
  unfold iblk
  rw [View.read_apply]
  show V m c main_v1 _ = _
  rw [V_main_v1 m c]
  refine reshape_apply _ _ _ R h q ?_ ?_
  · show win0_1.index t (0 : Fin 2) * 2000 + 1 * p.val = R.val
    rw [hR]; omega
  · show win0_1.index t (1 : Fin 2) * 24 + 1 * (4 * h.val + q.val) = 4 * h.val + q.val
    omega

/-- Operand 2 of the call, as the region finds it: argument main_arg1 with its last two axes merged. -/
theorem V_main_v2 (c : Dev nD) :
    (V m c main_v2 : S500000x24.Idx → F .f32) = shapeCast S500000x24 (m ((c : Thread nD τ).loc main_arg1)) shapeCasts_S500000x6x4_S500000x24 := by
  show StableHlo.after hostOps0 (fun b => m (c, b)) (Proc.devRef .tc main_v2) = _
  after_results
  rfl

/-- Window 2's block at point t, read at row p and column 4h + q, is the argument at sample 2000 t + p,
    coordinate h, point q. -/
theorem blk2_apply (c : Dev nD) (t : Fin cfg0.N) (p : Fin 2000) (h : Fin 6) (q : Fin 4) (R : Fin 500000)
    (hR : R.val = 2000 * t.val + p.val) :
    (iblk m c 2 t : Vec F S2000x24 .f32) (ix2 p (col h q)) = (m ((c : Thread nD τ).loc main_arg1)) (ix3 R h q) := by
  have e := idx_facts t
  unfold iblk
  rw [View.read_apply]
  show V m c main_v2 _ = _
  rw [V_main_v2 m c]
  refine reshape_apply _ _ _ R h q ?_ ?_
  · show win0_2.index t (0 : Fin 2) * 2000 + 1 * p.val = R.val
    rw [hR]; omega
  · show win0_2.index t (1 : Fin 2) * 24 + 1 * (4 * h.val + q.val) = 4 * h.val + q.val
    omega

/-- Operand 3 of the call, as the region finds it: argument main_arg3 with its last two axes merged. -/
theorem V_main_v3 (c : Dev nD) :
    (V m c main_v3 : S500000x24.Idx → F .f32) = shapeCast S500000x24 (m ((c : Thread nD τ).loc main_arg3)) shapeCasts_S500000x6x4_S500000x24 := by
  show StableHlo.after hostOps0 (fun b => m (c, b)) (Proc.devRef .tc main_v3) = _
  after_results
  rfl

/-- Window 3's block at point t, read at row p and column 4h + q, is the argument at sample 2000 t + p,
    coordinate h, point q. -/
theorem blk3_apply (c : Dev nD) (t : Fin cfg0.N) (p : Fin 2000) (h : Fin 6) (q : Fin 4) (R : Fin 500000)
    (hR : R.val = 2000 * t.val + p.val) :
    (iblk m c 3 t : Vec F S2000x24 .f32) (ix2 p (col h q)) = (m ((c : Thread nD τ).loc main_arg3)) (ix3 R h q) := by
  have e := idx_facts t
  unfold iblk
  rw [View.read_apply]
  show V m c main_v3 _ = _
  rw [V_main_v3 m c]
  refine reshape_apply _ _ _ R h q ?_ ?_
  · show win0_3.index t (0 : Fin 2) * 2000 + 1 * p.val = R.val
    rw [hR]; omega
  · show win0_3.index t (1 : Fin 2) * 24 + 1 * (4 * h.val + q.val) = 4 * h.val + q.val
    omega

/-- The block's digit k of row p at point q is the specification's digit k of sample R at point q, when the
    blocks' entries are the tensors' entries of sample R. -/
theorem digit_block (ai ao bi bo : Cert.Hist.SA.Idx → F .f32) (x0 x1 x2 x3 : Vec F S2000x24 .f32) (p : Fin 2000) (q : Fin 4)
    (R : Fin 500000)
    (h0 : ∀ h : Fin 6, x0 (ix2 p (col h q)) = ai (ix3 R h q)) (h1 : ∀ h : Fin 6, x1 (ix2 p (col h q)) = bi (ix3 R h q))
    (h2 : ∀ h : Fin 6, x2 (ix2 p (col h q)) = ao (ix3 R h q)) (h3 : ∀ h : Fin 6, x3 (ix2 p (col h q)) = bo (ix3 R h q))
    (k : Fin 12) : blockDigit x0 x1 x2 x3 p q k = Cert.Hist.dg ai ao bi bo R q k := by
  unfold blockDigit Cert.Hist.dg
  by_cases hk : k.val < 6
  · rw [dif_pos hk, dif_pos hk, h0, h1]
  · rw [dif_neg hk, dif_neg hk, h2, h3]

/-- WHAT POINT t WRITES BACK is block t of the specification's bin indices of the argument tensors. -/
theorem flushed_eq (c : Dev nD) (t : Fin cfg0.N) :
    (dats m 0 c).flushed 4 t = ((cfg0.win 4).blk t).view.read (Elt F) (Cert.Hist.lin (m ((c : Thread nD τ).loc main_arg0)) (m ((c : Thread nD τ).loc main_arg1)) (m ((c : Thread nD τ).loc main_arg2)) (m ((c : Thread nD τ).loc main_arg3))) := by
  have ht : t.val < 250 := Nat.lt_of_lt_of_eq t.isLt N_0
  show (cfg0.win 4).cut (grid0.coords t) ((dats m 0 c).after 4 t) = _
  rw [after0_4, out_pay]
  have e := idx_facts t
  funext j
  obtain ⟨p, q, rfl⟩ : ∃ (p : Fin 2000) (q : Fin 4), j = ix2 p q := ⟨j 0, j 1, eq_ix2 j⟩
  have hp := p.isLt
  obtain ⟨R, hR⟩ : ∃ R : Fin 500000, R.val = 2000 * t.val + p.val := ⟨⟨2000 * t.val + p.val, by omega⟩, rfl⟩
  have hemb : ((cfg0.win 4).blk t).view.emb (ix2 p q) = ix2 R q := by
    funext a; apply Fin.ext
    match a with
    | ⟨0, _⟩ => show win0_4.index t (0 : Fin 2) * 2000 + 1 * p.val = R.val; rw [hR]; omega
    | ⟨1, _⟩ => show win0_4.index t (1 : Fin 2) * 4 + 1 * q.val = q.val; omega
  show k0_pay1 (k0_pay2 (iblk m c 0 t) (iblk m c 1 t)) (k0_pay3 (iblk m c 2 t) (iblk m c 3 t)) (k0_pay4 (iblk m c 0 t) (iblk m c 1 t)) (ix2 p q)
    = (Cert.Hist.lin (m ((c : Thread nD τ).loc main_arg0)) (m ((c : Thread nD τ).loc main_arg1)) (m ((c : Thread nD τ).loc main_arg2)) (m ((c : Thread nD τ).loc main_arg3))) (((cfg0.win 4).blk t).view.emb (ix2 p q))
  rw [hemb]
  refine (pay_apply (iblk m c 0 t) (iblk m c 1 t) (iblk m c 2 t) (iblk m c 3 t) p q).trans ?_
  unfold Cert.Hist.lin
  refine congrArg Cert.Hist.chain (funext fun k => congrArg (fun d => IntOp.muli d (Cert.Hist.wt k)) ?_)
  exact digit_block (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) p q R
    (fun h => blk0_apply m c t p h q R hR) (fun h => blk1_apply m c t p h q R hR)
    (fun h => blk2_apply m c t p h q R hR) (fun h => blk3_apply m c t p h q R hR) k

/-- An index of the array is in point t's block iff each coordinate is in the block's range on its axis. -/
theorem mem_blk (t : Fin cfg0.N) (i : S500000x4.Idx) :
    i ∈ ((cfg0.win 4).blk t).view.set ↔ ∀ a : Fin 2, win0_4.index t a * S2000x4.size a ≤ (i a).val ∧ (i a).val < win0_4.index t a * S2000x4.size a + S2000x4.size a := by
  show i ∈ ((View.whole main_v4).slice (win0_4.rect t)).set ↔ _
  rw [View.set_slice_whole, Rect.mem_set_unit]
  exact Iff.rfl

/-- THE ARRAY AFTER THE CALL: the specification's bin indices (sample r lies in the block of point r / 2000). -/
theorem final (c : Dev nD) : (dats m 0 c).arrAt 4 cfg0.N = (Cert.Hist.lin (m ((c : Thread nD τ).loc main_arg0)) (m ((c : Thread nD τ).loc main_arg1)) (m ((c : Thread nD τ).loc main_arg2)) (m ((c : Thread nD τ).loc main_arg3))) :=
  (dats m 0 c).arrAt_eq_of_cover 4 (Cert.Hist.lin (m ((c : Thread nD τ).loc main_arg0)) (m ((c : Thread nD τ).loc main_arg1)) (m ((c : Thread nD τ).loc main_arg2)) (m ((c : Thread nD τ).loc main_arg3))) (fun t _ => flushed_eq m c t) fun i => by
    have hi0 : (i 0).val < 500000 := (i 0).isLt
    have hi1 : (i 1).val < 4 := (i 1).isLt
    obtain ⟨t, ht⟩ : ∃ t : Fin cfg0.N, t.val = (i 0).val / 2000 :=
      ⟨⟨(i 0).val / 2000, by rw [show cfg0.N = 250 from N_0]; omega⟩, rfl⟩
    have e := idx_facts t
    refine ⟨t, flush0_4 t, ?_⟩
    rw [mem_blk]
    intro a
    match a with
    | ⟨0, _⟩ =>
      show win0_4.index t (0 : Fin 2) * 2000 ≤ (i 0).val ∧ (i 0).val < win0_4.index t (0 : Fin 2) * 2000 + 2000
      omega
    | ⟨1, _⟩ =>
      show win0_4.index t (1 : Fin 2) * 4 ≤ (i 1).val ∧ (i 1).val < win0_4.index t (1 : Fin 2) * 4 + 4
      omega

/-- The result buffer after the host operations that follow the call: the shared histogram step of the array the
    call left. -/
theorem tail_eq (c : Dev nD) :
    Pipeline.afterTail₀ cfgs (dats m) 0 (V0 m) [hostOps1] c main_v17
      = Cert.Hist.tail (F := F) bcast_S_S16777216 shapeCasts_S500000x4_S2000000 bcast_S_S2000000 bcast_S2000000_S2000000x1_0
          shapeCasts_S16777216_S4x4x4x4x4x4x4x4x4x4x4x4 scatter_S16777216_S2000000x1_S2000000_n_0_0_1_wf
          ((dats m 0 c).arrAt 4 cfg0.N) := by
  unfold Pipeline.afterTail₀
  show StableHlo.after hostOps1 _ (Proc.devRef .tc main_v17) = _
  after_results
  rw [Pipeline.withArrays_arr spec0 launch0.win.arr_inj c _ _ 4]
  rfl

/-- The kernel program's run: it ends with the result at the histogram step of the specification's bin indices of
    the argument arrays, and the arguments unchanged. -/
theorem run : θ_run defs (onTc (τ := τ) (main (F := F))) ⟨m, fun _ => 0, ρ⟩ fun r => ∀ c : Dev nD,
      r.2.mem ((c : Thread nD τ).loc main_v17)
        = Cert.Hist.tail (F := F) bcast_S_S16777216 shapeCasts_S500000x4_S2000000 bcast_S_S2000000 bcast_S2000000_S2000000x1_0
          shapeCasts_S16777216_S4x4x4x4x4x4x4x4x4x4x4x4 scatter_S16777216_S2000000x1_S2000000_n_0_0_1_wf
            (Cert.Hist.lin (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v17 (Pipeline.mem_restRefs_of main_v17 (by decide) (by decide))).trans
          ((tail_eq m c).trans (congrArg _ (final m c))),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Hand

end
-- ==== Proof.RefRun.lean ====
/-
  The reference program's run, read back.

  The reference is a straight line of host operations (its two clamps are small functions, run in place on buffers
  of their own).  Listed in order, the line runs to the end from any memory, and each buffer then holds the
  operations' composed function of the argument arrays.  The result buffer holds the shared histogram step
  (Cert.Hist.tail) of the reference's bin indices (linR): the clamped digits of the two tensors laid one after the
  other along a middle axis of twelve, times the table of weights, summed over that axis.
-/
import proofs.«165879_j49735721287941_1_alg».proof.Proof.Gen.ReferenceIdeal
import proofs.«165879_j49735721287941_1_alg».proof.Proof.Tail
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order; each clamp's six operations stand where it is called. -/
abbrev ops : List (HloOp τ sig (Elt F)) :=
  [ nullary main_c (fun i => lit0 (S12.rowMajor i)),
    binary main_arg0 main_arg2 main_v0 (addf : (⟨S500000x6x4, .f32⟩ : BufTy).Contents (Elt F) → (⟨S500000x6x4, .f32⟩ : BufTy).Contents (Elt F) → (⟨S500000x6x4, .f32⟩ : BufTy).Contents (Elt F)),
    unary main_v0 main_v1 (fptosi 32 : (⟨S500000x6x4, .f32⟩ : BufTy).Contents (Elt F) → (⟨S500000x6x4, .i32⟩ : BufTy).Contents (Elt F)),
    nullary main_c_0 (constantI S_ 32 0#32),
    nullary main_c_1 (constantI S_ 32 3#32),
    TRef.unary (.of main_c_0) main_call0.v0 id,
    TRef.unary main_call0.v0 main_call0.v1 (broadcastInDim S500000x6x4 ![] bcast_S_S500000x6x4),
    TRef.binary main_call0.v1 (.of main_v1) main_call0.v2 maxsi,
    TRef.unary (.of main_c_1) main_call0.v3 id,
    TRef.unary main_call0.v3 main_call0.v4 (broadcastInDim S500000x6x4 ![] bcast_S_S500000x6x4),
    TRef.binary main_call0.v4 main_call0.v2 main_call0.v5 minsi,
    binary main_arg1 main_arg3 main_v3 (addf : (⟨S500000x6x4, .f32⟩ : BufTy).Contents (Elt F) → (⟨S500000x6x4, .f32⟩ : BufTy).Contents (Elt F) → (⟨S500000x6x4, .f32⟩ : BufTy).Contents (Elt F)),
    unary main_v3 main_v4 (fptosi 32 : (⟨S500000x6x4, .f32⟩ : BufTy).Contents (Elt F) → (⟨S500000x6x4, .i32⟩ : BufTy).Contents (Elt F)),
    nullary main_c_2 (constantI S_ 32 0#32),
    nullary main_c_3 (constantI S_ 32 3#32),
    TRef.unary (.of main_c_2) main_call1.v0 id,
    TRef.unary main_call1.v0 main_call1.v1 (broadcastInDim S500000x6x4 ![] bcast_S_S500000x6x4),
    TRef.binary main_call1.v1 (.of main_v4) main_call1.v2 maxsi,
    TRef.unary (.of main_c_3) main_call1.v3 id,
    TRef.unary main_call1.v3 main_call1.v4 (broadcastInDim S500000x6x4 ![] bcast_S_S500000x6x4),
    TRef.binary main_call1.v4 main_call1.v2 main_call1.v5 minsi,
    binary main_v2 main_v5 main_v6 ((fun a b => concatenate S500000x12x4 1 [⟨S500000x6x4, a⟩, ⟨S500000x6x4, b⟩] concatenates_S500000x6x4_S500000x6x4_S500000x12x4_d1) : (⟨S500000x6x4, .i32⟩ : BufTy).Contents (Elt F) → (⟨S500000x6x4, .i32⟩ : BufTy).Contents (Elt F) → (⟨S500000x12x4, .i32⟩ : BufTy).Contents (Elt F)),
    unary main_c main_v7 (broadcastInDim S1x12x1 ![1] bcast_S12_S1x12x1_1 : (⟨S12, .i32⟩ : BufTy).Contents (Elt F) → (⟨S1x12x1, .i32⟩ : BufTy).Contents (Elt F)),
    unary main_v7 main_v8 (broadcastInDim S500000x12x4 ![0, 1, 2] bcast_S1x12x1_S500000x12x4_0_1_2 : (⟨S1x12x1, .i32⟩ : BufTy).Contents (Elt F) → (⟨S500000x12x4, .i32⟩ : BufTy).Contents (Elt F)),
    binary main_v6 main_v8 main_v9 (muli : (⟨S500000x12x4, .i32⟩ : BufTy).Contents (Elt F) → (⟨S500000x12x4, .i32⟩ : BufTy).Contents (Elt F) → (⟨S500000x12x4, .i32⟩ : BufTy).Contents (Elt F)),
    nullary main_c_4 (constantI S_ 32 0#32),
    binary main_v9 main_c_4 main_v10 ((fun x v => Host.reduce IntOp.addi x v reducesTo_S500000x12x4_S500000x4_d1 h_S_) : (⟨S500000x12x4, .i32⟩ : BufTy).Contents (Elt F) → (⟨S_, .i32⟩ : BufTy).Contents (Elt F) → (⟨S500000x4, .i32⟩ : BufTy).Contents (Elt F)),
    nullary main_cst (constant S_ .f32 0x00000000#32),
    unary main_cst main_v11 (broadcastInDim S16777216 ![] bcast_S_S16777216 : (⟨S_, .f32⟩ : BufTy).Contents (Elt F) → (⟨S16777216, .f32⟩ : BufTy).Contents (Elt F)),
    reshape main_v10 main_v12 rfl shapeCasts_S500000x4_S2000000,
    nullary main_c_5 (constantI S_ 32 0#32),
    unary main_c_5 main_v13 (broadcastInDim S2000000 ![] bcast_S_S2000000 : (⟨S_, .i32⟩ : BufTy).Contents (Elt F) → (⟨S2000000, .i32⟩ : BufTy).Contents (Elt F)),
    binary main_v12 main_v13 main_v14 (cmpi .slt : (⟨S2000000, .i32⟩ : BufTy).Contents (Elt F) → (⟨S2000000, .i32⟩ : BufTy).Contents (Elt F) → (⟨S2000000, .i1⟩ : BufTy).Contents (Elt F)),
    nullary main_c_6 (constantI S_ 32 16777216#32),
    unary main_c_6 main_v15 (broadcastInDim S2000000 ![] bcast_S_S2000000 : (⟨S_, .i32⟩ : BufTy).Contents (Elt F) → (⟨S2000000, .i32⟩ : BufTy).Contents (Elt F)),
    binary main_v12 main_v15 main_v16 (addi : (⟨S2000000, .i32⟩ : BufTy).Contents (Elt F) → (⟨S2000000, .i32⟩ : BufTy).Contents (Elt F) → (⟨S2000000, .i32⟩ : BufTy).Contents (Elt F)),
    ternary main_v14 main_v16 main_v12 main_v17 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v17 main_v18 (broadcastInDim S2000000x1 ![0] bcast_S2000000_S2000000x1_0 : (⟨S2000000, .i32⟩ : BufTy).Contents (Elt F) → (⟨S2000000x1, .i32⟩ : BufTy).Contents (Elt F)),
    nullary main_cst_7 (constant S_ .f32 0x3F800000#32),
    unary main_cst_7 main_v19 (broadcastInDim S2000000 ![] bcast_S_S2000000 : (⟨S_, .f32⟩ : BufTy).Contents (Elt F) → (⟨S2000000, .f32⟩ : BufTy).Contents (Elt F)),
    ternary main_v11 main_v18 main_v19 main_v20 ((fun x i u => Host.scatterAdd scatter_S16777216_S2000000x1_S2000000_n_0_0_1 x i u) : (⟨S16777216, .f32⟩ : BufTy).Contents (Elt F) → (⟨S2000000x1, .i32⟩ : BufTy).Contents (Elt F) → (⟨S2000000, .f32⟩ : BufTy).Contents (Elt F) → (⟨S16777216, .f32⟩ : BufTy).Contents (Elt F)),
    nullary main_cst_8 (constant S_ .f32 0x48F42400#32),
    unary main_cst_8 main_v21 (broadcastInDim S16777216 ![] bcast_S_S16777216 : (⟨S_, .f32⟩ : BufTy).Contents (Elt F) → (⟨S16777216, .f32⟩ : BufTy).Contents (Elt F)),
    binary main_v20 main_v21 main_v22 (Host.divf : (⟨S16777216, .f32⟩ : BufTy).Contents (Elt F) → (⟨S16777216, .f32⟩ : BufTy).Contents (Elt F) → (⟨S16777216, .f32⟩ : BufTy).Contents (Elt F)),
    reshape main_v22 main_v23 rfl shapeCasts_S16777216_S4x4x4x4x4x4x4x4x4x4x4x4 ]

set_option maxRecDepth 2048 in
/-- The program is that straight line: the clamp's definition unfolded at its two calls, sequencing reassociated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., binary_bufs_sub .., nullary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., binary_bufs_sub .., reshape_bufs_sub ..⟩

theorem ops_fresh : (ops : List (HloOp τ sig (Elt F))).Forall fun op => op.fresh = ∅ := by
  simp only [List.Forall]; repeat' constructor

/-- Every weakly fair execution of the reference terminates, without a fault, each buffer at the fold of the
    operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.RefValue.lean ====
/-
  What the reference computes, index by index.

  The reference's array of bin indices (linR) is read at point q of sample r: the reduction over the middle axis
  is the fold of + over its twelve positions k; at position k the multiplied array holds the clamped digit — the
  first tensor's for k < 6, the second tensor's at k - 6 otherwise, by where k falls in the concatenation — times
  entry k of the weight table.  That is the specification's chain (Cert.Hist.lin).
-/
import proofs.«165879_j49735721287941_1_alg».proof.Proof.RefRun
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- A tensor plus its bias, converted to integers and clamped to [0, 3], as the reference writes it. -/
def clipR (x b : FVec F S500000x6x4 .f32) : IVec S500000x6x4 32 :=
  minsi (broadcastInDim S500000x6x4 ![] bcast_S_S500000x6x4 (id (constantI S_ 32 3#32)))
    (maxsi (broadcastInDim S500000x6x4 ![] bcast_S_S500000x6x4 (id (constantI S_ 32 0#32))) (fptosi 32 (addf x b)))

/-- The digits of both tensors along one middle axis of twelve. -/
def digitsR (a0 a1 a2 a3 : FVec F S500000x6x4 .f32) : IVec S500000x12x4 32 :=
  concatenate S500000x12x4 1 [⟨S500000x6x4, clipR a0 a2⟩, ⟨S500000x6x4, clipR a1 a3⟩] concatenates_S500000x6x4_S500000x6x4_S500000x12x4_d1

/-- The weight table along the middle axis, the same for every sample and point. -/
def weightsR : IVec S500000x12x4 32 :=
  broadcastInDim S500000x12x4 ![0, 1, 2] bcast_S1x12x1_S500000x12x4_0_1_2
    (broadcastInDim S1x12x1 ![1] bcast_S12_S1x12x1_1 (fun i => lit0 (S12.rowMajor i)))

/-- The reference's bin indices. -/
def linR (a0 a1 a2 a3 : FVec F S500000x6x4 .f32) : IVec S500000x4 32 :=
  Host.reduce IntOp.addi (muli (digitsR a0 a1 a2 a3) weightsR) (constantI S_ 32 0#32) reducesTo_S500000x12x4_S500000x4_d1 h_S_

/-- A clamped digit read at an index is the specification's digit. -/
theorem clipR_apply (x b : FVec F S500000x6x4 .f32) (j : S500000x6x4.Idx) : clipR x b j = Cert.Hist.digit (x j) (b j) := rfl

/-- The weight at position k of the middle axis is entry k of the table. -/
theorem weightsR_apply (r : Fin 500000) (q : Fin 4) (k : Fin 12) : weightsR (ix3 r k q) = Cert.Hist.wt k := by
  unfold weightsR
  rw [broadcastInDim_apply _ bcast_S1x12x1_S500000x12x4_0_1_2 _ (ix3 r k q) (ix3 (0 : Fin 1) k (0 : Fin 1))
    (fun a => match a with | ⟨0, _⟩ => rfl | ⟨1, _⟩ => rfl | ⟨2, _⟩ => rfl)]
  rw [broadcastInDim_apply _ bcast_S12_S1x12x1_1 _ (ix3 (0 : Fin 1) k (0 : Fin 1)) (ix1 k) (fun a => match a with | ⟨0, _⟩ => rfl)]
  have hk : S12.rowMajor (ix1 k) = k := Fin.ext (by rw [Shape.rowMajor_val_one])
  show lit0 (S12.rowMajor (ix1 k)) = _
  rw [hk]
  fin_cases k <;> rfl

/-- Position k < 6 of the middle axis holds the first tensor's digit k. -/
theorem digitsR_left (a0 a1 a2 a3 : FVec F S500000x6x4 .f32) (r : Fin 500000) (q : Fin 4) (k : Fin 12) (hk : k.val < 6) :
    digitsR a0 a1 a2 a3 (ix3 r k q) = Cert.Hist.digit (a0 (ix3 r ⟨k.val, hk⟩ q)) (a2 (ix3 r ⟨k.val, hk⟩ q)) := by
  unfold digitsR
  rw [concatenate_pair_apply_left 1 (clipR a0 a2) (clipR a1 a3) concatenates_S500000x6x4_S500000x6x4_S500000x12x4_d1
    (ix3 r k q) rfl (ix3 r ⟨k.val, hk⟩ q) (fun b => match b with | ⟨0, _⟩ => rfl | ⟨1, _⟩ => rfl | ⟨2, _⟩ => rfl)]
  rfl

/-- Position k ≥ 6 holds the second tensor's digit k - 6. -/
theorem digitsR_right (a0 a1 a2 a3 : FVec F S500000x6x4 .f32) (r : Fin 500000) (q : Fin 4) (k : Fin 12) (hk : ¬ k.val < 6) :
    digitsR a0 a1 a2 a3 (ix3 r k q)
      = Cert.Hist.digit (a1 (ix3 r ⟨k.val - 6, by have := k.isLt; omega⟩ q)) (a3 (ix3 r ⟨k.val - 6, by have := k.isLt; omega⟩ q)) := by
  unfold digitsR
  rw [concatenate_pair_apply_right 1 (clipR a0 a2) (clipR a1 a3) concatenates_S500000x6x4_S500000x6x4_S500000x12x4_d1
    (ix3 r k q) rfl rfl (ix3 r ⟨k.val - 6, by have := k.isLt; omega⟩ q)
    (fun b hb => match b, hb with | ⟨0, _⟩, _ => rfl | ⟨1, _⟩, hb => absurd rfl hb | ⟨2, _⟩, _ => rfl)
    (by show k.val - 6 + 6 = k.val; omega)]
  rfl

/-- The reduction's index (r, q) with k inserted on the middle axis. -/
theorem lift_eq (h : S500000x12x4.Reduces [1] S500000x4) (r : Fin 500000) (q : Fin 4) (k : Fin 12) :
    h.lift (ix2 r q) k = ix3 r k q := by
  funext a
  apply Fin.ext
  match a with
  | ⟨0, _⟩ => rfl
  | ⟨1, _⟩ => rfl
  | ⟨2, _⟩ => rfl

/-- THE REFERENCE'S BIN INDICES ARE THE SPECIFICATION'S. -/
theorem linR_eq (a0 a1 a2 a3 : FVec F S500000x6x4 .f32) : linR a0 a1 a2 a3 = Cert.Hist.lin a0 a1 a2 a3 := by
  funext i
  obtain ⟨r, q, rfl⟩ : ∃ (r : Fin 500000) (q : Fin 4), i = ix2 r q := ⟨i 0, i 1, eq_ix2 i⟩
  have hred : S500000x12x4.Reduces [1] S500000x4 := by decide
  unfold linR
  refine (Host.reduce_eq_fold_single IntOp.addi _ _ reducesTo_S500000x12x4_S500000x4_d1 hred h_S_ (ix2 r q)).trans ?_
  refine (Cert.Hist.fold12 (fun k : Fin 12 =>
    IntOp.muli (digitsR a0 a1 a2 a3 (hred.lift (ix2 r q) k)) (weightsR (hred.lift (ix2 r q) k)))).trans ?_
  unfold Cert.Hist.lin
  refine congrArg Cert.Hist.chain (funext fun k => ?_)
  refine (congrArg (fun j => IntOp.muli (digitsR a0 a1 a2 a3 j) (weightsR j)) (lift_eq hred r q k)).trans ?_
  show IntOp.muli (digitsR a0 a1 a2 a3 (ix3 r k q)) (weightsR (ix3 r k q)) = _
  rw [weightsR_apply r q k]
  refine congrArg (fun d => IntOp.muli d (Cert.Hist.wt k)) ?_
  unfold Cert.Hist.dg
  by_cases hk : k.val < 6
  · rw [dif_pos hk]; exact digitsR_left a0 a1 a2 a3 r q k hk
  · rw [dif_neg hk]; exact digitsR_right a0 a1 a2 a3 r q k hk

/-! ## The run's buffers -/

attribute [local irreducible] Host.reduce Host.scatterAdd Host.divf concatenate in
set_option maxRecDepth 8192 in
/-- The result buffer after the reference's operations: the shared histogram step of the reference's bin indices. -/
theorem out_eq (V : Valuation τ sig (Elt F)) :
    after ops V (main_v23 : DevRef τ sig)
      = Cert.Hist.tail (F := F) bcast_S_S16777216 shapeCasts_S500000x4_S2000000 bcast_S_S2000000 bcast_S2000000_S2000000x1_0
          shapeCasts_S16777216_S4x4x4x4x4x4x4x4x4x4x4x4 scatter_S16777216_S2000000x1_S2000000_n_0_0_1_wf
          (linR (V (main_arg0 : DevRef τ sig)) (V (main_arg1 : DevRef τ sig)) (V (main_arg2 : DevRef τ sig)) (V (main_arg3 : DevRef τ sig))) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- The reference's run: it ends with the result at the histogram step of the specification's bin indices of the
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
        = Cert.Hist.tail (F := F) bcast_S_S16777216 shapeCasts_S500000x4_S2000000 bcast_S_S2000000 bcast_S2000000_S2000000x1_0
            shapeCasts_S16777216_S4x4x4x4x4x4x4x4x4x4x4x4 scatter_S16777216_S2000000x1_S2000000_n_0_0_1_wf
            (Cert.Hist.lin (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v23).trans ((out_eq _).trans (congrArg _ (linR_eq _ _ _ _))),
       (h c main_arg0).trans (arg0_eq _), (h c main_arg1).trans (arg1_eq _),
       (h c main_arg2).trans (arg2_eq _), (h c main_arg3).trans (arg3_eq _)⟩)
    (run_fold m ρ)

end Cert.ReferenceIdeal.Hand

end
-- ==== Proof.lean ====
/-
  A normalized joint histogram of 500,000 samples over 4^12 bins, computed two ways.

  Each sample has six input rows and six output rows of four points; an entry plus its bias, converted to an
  integer and clamped to [0, 3], is a base-4 digit, and point q of sample r falls in the bin whose index has the
  twelve digits of column q, most significant first.  Every bin's count (one per point falling in it) is divided
  by the number of samples.

  The kernel program computes the bin indices in a grid of 250 blocks of 2000 samples — per block, twelve products
  of a digit column and a power of four added one after the other — and the reference computes them as a weighted
  sum over a twelve-long axis of the concatenated digits.  Both are the specification Cert.Hist.lin of the argument
  arrays (addition of 32-bit words is commutative and associative; the same conversion and clamp on both sides),
  and both then apply the same histogram step Cert.Hist.tail.  So the two results are one function of the
  arguments, at every float instance; no finiteness of the inputs is used.

  The word-level and idealized kernel programs run, fault-free, with their arguments unchanged (their generated
  frames); the reference does by its run read back; the idealization rewrote nothing.
-/
import proofs.«165879_j49735721287941_1_alg».proof.Defs
import proofs.«165879_j49735721287941_1_alg».proof.Proof.Gen.Kernel
import proofs.«165879_j49735721287941_1_alg».proof.Proof.Gen.Kernel.Frame
import proofs.«165879_j49735721287941_1_alg».proof.Proof.Gen.KernelIdeal
import proofs.«165879_j49735721287941_1_alg».proof.Proof.Gen.KernelIdeal.Frame
import proofs.«165879_j49735721287941_1_alg».proof.Proof.Gen.ReferenceIdeal
import proofs.«165879_j49735721287941_1_alg».proof.Proof.Gen.Pre_finite_inputs
import proofs.«165879_j49735721287941_1_alg».proof.Proof.KernelArr
import proofs.«165879_j49735721287941_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end at the histogram step of the specification's bin indices of the (agreeing) arguments. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
